-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256 : Shape := ⟨2, ![8, 256]⟩
abbrev S8x128x256 : Shape := ⟨3, ![8, 128, 256]⟩
abbrev S_ : Shape := ⟨0, ![]⟩

class Facts : Prop where
  bcast_S_S8x256 : S_.BroadcastsInDim S8x256 (![] : Fin 0 → Fin S8x256.rank)
  reducesTo_S8x256_S_d0_1 : S8x256.ReducesTo [0, 1] S_
  h_S_ : 0 < S_.numel
  bcast_S_S8x128x256 : S_.BroadcastsInDim S8x128x256 (![] : Fin 0 → Fin S8x128x256.rank)
  reducesTo_S8x128x256_S_d0_1_2 : S8x128x256.ReducesTo [0, 1, 2] S_

variable [Facts]

def fn {F : FTy → Type} [FloatOps F] (main_arg0 : FVec F S8x256 .f32) (main_arg1 : FVec F S8x128x256 .f32) : IVec S_ 1 :=
  let main_v0 : FVec F S8x256 .f32 := Host.absf main_arg0
  let main_cst : FVec F S_ .f32 := constant S_ .f32 0x7F800000#32
  let main_v1 : FVec F S8x256 .f32 := broadcastInDim S8x256 ![] bcast_S_S8x256 main_cst
  let main_v2 : IVec S8x256 1 := cmpf .olt main_v0 main_v1
  let main_c : IVec S_ 1 := constantI S_ 1 1#1
  let main_v3 : IVec S_ 1 := (fun x v => Host.reduce IntOp.andi x v reducesTo_S8x256_S_d0_1 h_S_) main_v2 main_c
  let main_v4 : FVec F S8x128x256 .f32 := Host.absf main_arg1
  let main_cst_0 : FVec F S_ .f32 := constant S_ .f32 0x7F800000#32
  let main_v5 : FVec F S8x128x256 .f32 := broadcastInDim S8x128x256 ![] bcast_S_S8x128x256 main_cst_0
  let main_v6 : IVec S8x128x256 1 := cmpf .olt main_v4 main_v5
  let main_c_1 : IVec S_ 1 := constantI S_ 1 1#1
  let main_v7 : IVec S_ 1 := (fun x v => Host.reduce IntOp.andi x v reducesTo_S8x128x256_S_d0_1_2 h_S_) main_v6 main_c_1
  let main_v8 : IVec S_ 1 := andi main_v3 main_v7
  main_v8
-- ==== Kernel.lean ====
abbrev S8x256 : Shape := ⟨2, ![8, 256]⟩
abbrev S8x128x256 : Shape := ⟨3, ![8, 128, 256]⟩
abbrev S8x1x256 : Shape := ⟨3, ![8, 1, 256]⟩
abbrev S1x1x256 : Shape := ⟨3, ![1, 1, 256]⟩
abbrev S1x16x256 : Shape := ⟨3, ![1, 16, 256]⟩
abbrev S256 : Shape := ⟨1, ![256]⟩
abbrev S16x256 : Shape := ⟨2, ![16, 256]⟩
abbrev S1x256x1 : Shape := ⟨3, ![1, 256, 1]⟩
abbrev S16x1x256 : Shape := ⟨3, ![16, 1, 256]⟩
abbrev S16x256x256 : Shape := ⟨3, ![16, 256, 256]⟩

abbrev nBuf : Space → Nat
  | .hbm => 5
  | .vmem => 6
  | .smem => 0
  | _ => 0

abbrev bufTy : (tb : Table) → Fin (tcTables nBuf tb) → BufTy
  | .hbm, ⟨0, _⟩ => ⟨S8x256, .f32⟩
  | .hbm, ⟨1, _⟩ => ⟨S8x128x256, .f32⟩
  | .hbm, ⟨2, _⟩ => ⟨S8x1x256, .f32⟩
  | .hbm, ⟨3, _⟩ => ⟨S8x1x256, .f32⟩
  | .hbm, ⟨4, _⟩ => ⟨S8x256, .f32⟩
  | .local _ .vmem, ⟨0, _⟩ => ⟨S1x1x256, .f32⟩
  | .local _ .vmem, ⟨1, _⟩ => ⟨S1x1x256, .f32⟩
  | .local _ .vmem, ⟨2, _⟩ => ⟨S1x16x256, .f32⟩
  | .local _ .vmem, ⟨3, _⟩ => ⟨S1x16x256, .f32⟩
  | .local _ .vmem, ⟨4, _⟩ => ⟨S1x1x256, .f32⟩
  | .local _ .vmem, ⟨5, _⟩ => ⟨S1x1x256, .f32⟩
  | _, _ => ⟨S8x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  bcast_S8x256_S8x1x256_0_2 : S8x256.BroadcastsInDim S8x1x256 (![0, 2] : Fin 2 → Fin S8x1x256.rank)
  inb_S1x1x256_S1x1x256_0_0_0 : ∀ a, (![0, 0, 0] : Fin 3 → Nat) a + S1x1x256.size a ≤ S1x1x256.size a
  h_S1x1x256 : 0 < S1x1x256.numel
  shapeCasts_S1x1x256_S256 : S1x1x256.ShapeCasts S256
  inb_S1x16x256_S1x16x256_0_0_0 : ∀ a, (![0, 0, 0] : Fin 3 → Nat) a + S1x16x256.size a ≤ S1x16x256.size a
  h_S1x16x256 : 0 < S1x16x256.numel
  shapeCasts_S1x16x256_S16x256 : S1x16x256.ShapeCasts S16x256
  shapeCasts_S256_S1x256x1 : S256.ShapeCasts S1x256x1
  shapeCasts_S16x256_S16x1x256 : S16x256.ShapeCasts S16x1x256
  broadcasts_S1x256x1_S16x256x256 : S1x256x1.Broadcasts S16x256x256
  broadcasts_S16x1x256_S16x256x256 : S16x1x256.Broadcasts S16x256x256
  reduces_S16x256x256_S16x256 : S16x256x256.Reduces [1] S16x256
  reduces_S16x256x256_S16x256_2 : S16x256x256.Reduces [2] S16x256
  reduces_S16x256_S256 : S16x256.Reduces [0] S256
  shapeCasts_S1x1x256_S1x1x256 : S1x1x256.ShapeCasts S1x1x256
  shapeCasts_S256_S1x1x256 : S256.ShapeCasts S1x1x256
  shapeCasts_S8x1x256_S8x256 : S8x1x256.ShapeCasts S8x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256.size a ≤ S8x1x256.size a
  hwx0_0 : ∀ i : grid0.Coords, EltTy.bits .f32 = 32 ∨ (Rect.block (s := S8x1x256) S1x1x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x16x256.size a ≤ S8x128x256.size a
  hwx0_1 : ∀ i : grid0.Coords, EltTy.bits .f32 = 32 ∨ (Rect.block (s := S8x128x256) S1x16x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x256.size a ≤ S8x1x256.size a
  hwx0_2 : ∀ i : grid0.Coords, EltTy.bits .f32 = 32 ∨ (Rect.block (s := S8x1x256) S1x1x256.size (cc0_transform_2 i) (hinb0_2 i)).WholeWords (EltTy.packing .f32)

variable [Facts₀]

abbrev win0_0 : Pipeline.Window sig grid0 :=
  Pipeline.Window.ofSpec (Memref.whole main_v0) S1x1x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x256 : Shape := ⟨2, ![8, 256]⟩
abbrev S8x128x256 : Shape := ⟨3, ![8, 128, 256]⟩
abbrev S8x1x256x1 : Shape := ⟨4, ![8, 1, 256, 1]⟩
abbrev S8x128x1x256 : Shape := ⟨4, ![8, 128, 1, 256]⟩
abbrev S8x128x256x256 : Shape := ⟨4, ![8, 128, 256, 256]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S8x256, .f32⟩
  | .hbm, ⟨1, _⟩ => ⟨S8x128x256, .f32⟩
  | .hbm, ⟨2, _⟩ => ⟨S8x1x256x1, .f32⟩
  | .hbm, ⟨3, _⟩ => ⟨S8x128x1x256, .f32⟩
  | .hbm, ⟨4, _⟩ => ⟨S8x128x256x256, .f32⟩
  | .hbm, ⟨5, _⟩ => ⟨S8x128x256x256, .f32⟩
  | .hbm, ⟨6, _⟩ => ⟨S8x128x256x256, .f32⟩
  | .hbm, ⟨7, _⟩ => ⟨S8x128x256x256, .f32⟩
  | .hbm, ⟨8, _⟩ => ⟨S_, .f32⟩
  | .hbm, ⟨9, _⟩ => ⟨S8x128x256, .f32⟩
  | .hbm, ⟨10, _⟩ => ⟨S_, .f32⟩
  | .hbm, ⟨11, _⟩ => ⟨S8x128x256, .f32⟩
  | .hbm, ⟨12, _⟩ => ⟨S8x128x256, .f32⟩
  | .hbm, ⟨13, _⟩ => ⟨S8x128x256, .f32⟩
  | .hbm, ⟨14, _⟩ => ⟨S_, .f32⟩
  | .hbm, ⟨15, _⟩ => ⟨S8x256, .f32⟩
  | _, _ => ⟨S8x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩

abbrev nD : Nat := 1
abbrev τ : Topo := Topo.v7x

variable {F : FTy → Type} [FloatOps F]

class Facts₀ : Prop where
  bcast_S8x256_S8x1x256x1_0_2 : S8x256.BroadcastsInDim S8x1x256x1 (![0, 2] : Fin 2 → Fin S8x1x256x1.rank)
  bcast_S8x128x256_S8x128x1x256_0_1_3 : S8x128x256.BroadcastsInDim S8x128x1x256 (![0, 1, 3] : Fin 3 → Fin S8x128x1x256.rank)
  bcast_S8x1x256x1_S8x128x256x256_0_1_2_3 : S8x1x256x1.BroadcastsInDim S8x128x256x256 (![0, 1, 2, 3] : Fin 4 → Fin S8x128x256x256.rank)
  bcast_S8x128x1x256_S8x128x256x256_0_1_2_3 : S8x128x1x256.BroadcastsInDim S8x128x256x256 (![0, 1, 2, 3] : Fin 4 → Fin S8x128x256x256.rank)
  reducesTo_S8x128x256x256_S8x128x256_d2 : S8x128x256x256.ReducesTo [2] S8x128x256
  h_S_ : 0 < S_.numel
  reducesTo_S8x128x256x256_S8x128x256_d3 : S8x128x256x256.ReducesTo [3] S8x128x256
  reducesTo_S8x128x256_S8x256_d1 : S8x128x256.ReducesTo [1] S8x256

variable [Facts₀]

class Facts : Prop extends Facts₀ where

variable [Facts]
-- ==== Proof.Spec.lean ====
/-
  The common value of both programs, as ONE function of the two argument arrays, and the one law that joins their
  two arrangements.

  With `dec : [8, 256]` and `enc : [8, 128, 256]`, write `E b t p q = exp (dec[b,p] * enc[b,t,q])`. Both programs compute

      out[b, j] = ∑ t < 128, (enc[b,t,j] * ∑ p, E b t p j) / ∑ q, E b t j q

  (the product first, then the quotient). The reference sums the 128 time steps at once; the kernel walks them in 8 blocks
  of 16, block `k` holding the steps `16 k + r`, and adds each block's sum to a running total that starts from zero.
  A finite sum over `Fin 128` regrouped as a sum over `Fin 8 × Fin 16` is the same element of any commutative monoid, so
  the two agree on the extended reals with no finiteness hypothesis.
-/
import Idealize.ShloMosaic.PureOps.Ideal
import Idealize.ShloMosaic.Lib.ValueIdx

noncomputable section

namespace Cert.Spec

open Idealize.ShloMosaic Idealize.ShloMosaic.ValueIdx

/-- The first argument, `dec`: 8 rows of 256 extended reals. -/
abbrev Dec := (⟨2, ![8, 256]⟩ : Shape).Idx → EReal
/-- The second argument, `enc`: 8 batches of 128 time steps of 256 extended reals. -/
abbrev Enc := (⟨3, ![8, 128, 256]⟩ : Shape).Idx → EReal

/-- One time step's contribution to `out[b, j]`: `(enc[b,t,j] * ∑ p, exp (dec[b,p] * enc[b,t,j])) / ∑ q, exp (dec[b,j] * enc[b,t,q])`. -/
def term (dec : Dec) (enc : Enc) (b : Fin 8) (t : Fin 128) (j : Fin 256) : EReal :=
  Ideal.div (enc (ix3 b t j) * ∑ p : Fin 256, Ideal.exp (dec (ix2 b p) * enc (ix3 b t j)))
    (∑ q : Fin 256, Ideal.exp (dec (ix2 b j) * enc (ix3 b t q)))

/-- Time step `16 k + r`: row `r` of time block `k`. -/
def step (k : Fin 8) (r : Fin 16) : Fin 128 := ⟨16 * k.val + r.val, by have := k.isLt; have := r.isLt; omega⟩

/-- The sum of one time block's 16 contributions. -/
def blockSum (dec : Dec) (enc : Enc) (b : Fin 8) (k : Fin 8) (j : Fin 256) : EReal :=
  ∑ r : Fin 16, term dec enc b (step k r) j

/-- The sum of the time blocks `0 … n - 1`. -/
def upTo (dec : Dec) (enc : Enc) (b : Fin 8) (n : ℕ) (j : Fin 256) : EReal :=
  ∑ k ∈ Finset.univ.filter (fun k : Fin 8 => k.val < n), blockSum dec enc b k j

/-- The whole result: all 128 time steps summed. -/
def G (dec : Dec) (enc : Enc) : (⟨2, ![8, 256]⟩ : Shape).Idx → EReal :=
  fun i => ∑ t : Fin 128, term dec enc ⟨(i 0).val, (i 0).isLt⟩ t ⟨(i 1).val, (i 1).isLt⟩

/-- A sum over 128 steps is the sum over the 8 blocks of the sums over each block's 16 rows, in any commutative monoid. -/
theorem sum_blocks {M : Type*} [AddCommMonoid M] (f : Fin 128 → M) :
    ∑ t : Fin 128, f t = ∑ k : Fin 8, ∑ r : Fin 16, f (step k r) := by
  have e : ∑ t : Fin 128, f t = ∑ x : Fin 8 × Fin 16, f (finProdFinEquiv x) :=
    (Equiv.sum_comp (finProdFinEquiv : Fin 8 × Fin 16 ≃ Fin (8 * 16)) f).symm
  rw [e, Fintype.sum_prod_type]
  refine Finset.sum_congr rfl fun k _ => Finset.sum_congr rfl fun r _ => congrArg f (Fin.ext ?_)
  show r.val + 16 * k.val = 16 * k.val + r.val
  omega

theorem upTo_zero (dec : Dec) (enc : Enc) (b : Fin 8) (j : Fin 256) : upTo dec enc b 0 j = 0 := by
  unfold upTo
  rw [Finset.filter_false_of_mem (fun k _ => Nat.not_lt_zero _), Finset.sum_empty]

/-- One more block: the running total after block `n` is the total before it plus block `n`'s sum. -/
theorem upTo_succ (dec : Dec) (enc : Enc) (b : Fin 8) (n : ℕ) (hn : n < 8) (j : Fin 256) :
    upTo dec enc b (n + 1) j = upTo dec enc b n j + blockSum dec enc b ⟨n, hn⟩ j := by
  unfold upTo
  have hs : (Finset.univ.filter fun k : Fin 8 => k.val < n + 1)
      = insert (⟨n, hn⟩ : Fin 8) (Finset.univ.filter fun k : Fin 8 => k.val < n) := by
    ext k
    simp only [Finset.mem_filter, Finset.mem_univ, true_and, Finset.mem_insert, Fin.ext_iff]
    omega
  rw [hs, Finset.sum_insert (by simp), add_comm]

/-- All eight blocks are all 128 steps. -/
theorem upTo_eight (dec : Dec) (enc : Enc) (b : Fin 8) (j : Fin 256) :
    upTo dec enc b 8 j = G dec enc (ix2 b j) := by
  unfold upTo G
  rw [Finset.filter_true_of_mem (fun k _ => k.isLt)]
  exact (sum_blocks fun t => term dec enc b t j).symm

end Cert.Spec

end
-- ==== Proof.RefSpec.lean ====
/-
  The reference's result is the specification `Spec.G` of the two arguments, index by index.

  Read one operation at a time: the two broadcasts place `dec[b,p]` and `enc[b,t,q]` at `(b,t,p,q)`; their product's
  exponential summed over `p` (axis 2) at `(b,t,j)` has `q = j`, summed over `q` (axis 3) at `(b,t,j)` has `p = j`; both sums
  start from the zero word, which is the extended real `0`; the quotient of `enc * (first sum)` by the second, summed
  over the 128 time steps from zero, is `Spec.G`.
-/
import proofs.«173703_j66288525246706_1_alg».proof.Proof.Gen.ReferenceIdeal.Read
import proofs.«173703_j66288525246706_1_alg».proof.Proof.Spec

noncomputable section

namespace Cert.RefSpec

open Cert.ReferenceIdeal Cert.ReferenceIdeal.Read Idealize.ShloMosaic Idealize.ShloMosaic.ValueIdx

variable (x0 : (⟨S8x256, .f32⟩ : BufTy).Contents (Elt Ideal)) (x1 : (⟨S8x128x256, .f32⟩ : BufTy).Contents (Elt Ideal))

/-- The exponential at `(b, t, p, q)`: `exp (dec[b,p] * enc[b,t,q])`. -/
theorem v5_at (b : Fin 8) (t : Fin 128) (p q : Fin 256) :
    val_main_v5 (F := Ideal) x0 x1 (ix4 b t p q) = Ideal.exp (x0 (ix2 b p) * x1 (ix3 b t q)) := by
  rw [val_main_v5_apply, val_main_v4_apply, val_main_v2_apply, val_main_v3_apply, val_main_v0_apply, val_main_v1_apply]
  have e0 : idx_main_v0 (idx_main_v2 (ix4 b t p q)) = ix2 b p :=
    funext fun a => match a with | ⟨0, _⟩ => rfl | ⟨1, _⟩ => rfl
  have e1 : idx_main_v1 (idx_main_v3 (ix4 b t p q)) = ix3 b t q :=
    funext fun a => match a with | ⟨0, _⟩ => rfl | ⟨1, _⟩ => rfl | ⟨2, _⟩ => rfl
  rw [e0, e1]
  rfl

/-- The sum over `p` at `(b, t, j)`. -/
theorem v6_at (b : Fin 8) (t : Fin 128) (j : Fin 256) :
    val_main_v6 (F := Ideal) x0 x1 (ix3 b t j) = ∑ p : Fin 256, Ideal.exp (x0 (ix2 b p) * x1 (ix3 b t j)) := by
  rw [val_main_v6_apply, val_main_cst_apply]
  show Ideal.ofBits .f32 0x00000000#32 + _ = _
  rw [Ideal.ofBits_zero_f32, zero_add]
  refine Finset.sum_congr rfl fun p _ => ?_
  have e : idx_main_v6 (ix3 b t j) p = ix4 b t p j :=
    funext fun a => match a with | ⟨0, _⟩ => rfl | ⟨1, _⟩ => rfl | ⟨2, _⟩ => rfl | ⟨3, _⟩ => rfl
  rw [e, v5_at]

/-- The sum over `q` at `(b, t, j)`. -/
theorem v7_at (b : Fin 8) (t : Fin 128) (j : Fin 256) :
    val_main_v7 (F := Ideal) x0 x1 (ix3 b t j) = ∑ q : Fin 256, Ideal.exp (x0 (ix2 b j) * x1 (ix3 b t q)) := by
  rw [val_main_v7_apply, val_main_cst_0_apply]
  show Ideal.ofBits .f32 0x00000000#32 + _ = _
  rw [Ideal.ofBits_zero_f32, zero_add]
  refine Finset.sum_congr rfl fun q _ => ?_
  have e : idx_main_v7 (ix3 b t j) q = ix4 b t j q :=
    funext fun a => match a with | ⟨0, _⟩ => rfl | ⟨1, _⟩ => rfl | ⟨2, _⟩ => rfl | ⟨3, _⟩ => rfl
  rw [e, v5_at]

/-- One time step's quotient at `(b, t, j)` is the specification's term. -/
theorem v9_at (b : Fin 8) (t : Fin 128) (j : Fin 256) :
    val_main_v9 (F := Ideal) x0 x1 (ix3 b t j) = Cert.Spec.term x0 x1 b t j := by
  rw [val_main_v9_apply, val_main_v8_apply, v6_at, v7_at]
  rfl

/-- The reference's result is `Spec.G`. -/
theorem ref_is_spec : val_main_v10 (F := Ideal) x0 x1 = Cert.Spec.G x0 x1 := by
  funext i
  rw [val_main_v10_apply, val_main_cst_1_apply]
  show Ideal.ofBits .f32 0x00000000#32 + _ = _
  rw [Ideal.ofBits_zero_f32, zero_add]
  unfold Cert.Spec.G
  refine Finset.sum_congr rfl fun t _ => ?_
  have e : idx_main_v10 i t = ix3 (⟨(i 0).val, (i 0).isLt⟩ : Fin 8) t (⟨(i 1).val, (i 1).isLt⟩ : Fin 256) :=
    funext fun a => match a with | ⟨0, _⟩ => rfl | ⟨1, _⟩ => rfl | ⟨2, _⟩ => rfl
  rw [e, v9_at]

end Cert.RefSpec

end
-- ==== Proof.Blocks.lean ====
/-
  The input blocks at a grid point, read off the argument arrays.

  The grid is 8 × 8; point `t = 8 b + k` works on batch row `b` and time block `k`. Its `dec` block is row `b` of `dec`
  (the host line before the region only inserts a unit axis), its `enc` block is rows `16 k … 16 k + 15` of `enc[b]`, and
  its output block is row `b` of the output. A block's element sits at block index × block size + its own coordinate.
-/
import proofs.«173703_j66288525246706_1_alg».proof.Proof.Gen.KernelIdeal.Frame.Runs
import proofs.«173703_j66288525246706_1_alg».proof.Proof.Spec
import Idealize.ShloMosaic.Lib.Pipeline.Value
import Idealize.ShloMosaic.Lib.StableHlo.Run
import Idealize.ShloMosaic.Lib.ValueIdx

noncomputable section

namespace Cert.KernelIdeal.Blocks

open Cert.KernelIdeal Cert.KernelIdeal.Gen Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The three index maps over the grid: point `t` is batch row `t / 8`, time block `t % 8`. -/
theorem idx_facts : ∀ t : Fin cfg0.N,
    win0_0.index t (0 : Fin 3) = t.val / 8 ∧ win0_0.index t (1 : Fin 3) = 0 ∧ win0_0.index t (2 : Fin 3) = 0
    ∧ win0_1.index t (0 : Fin 3) = t.val / 8 ∧ win0_1.index t (1 : Fin 3) = t.val % 8 ∧ win0_1.index t (2 : Fin 3) = 0
    ∧ win0_2.index t (0 : Fin 3) = t.val / 8 ∧ win0_2.index t (1 : Fin 3) = 0 ∧ win0_2.index t (2 : Fin 3) = 0 :=
  (by decide +kernel : ∀ t : Fin grid0.N, _)

/-- The batch row of a point. -/
def row (t : Fin cfg0.N) : Fin 8 :=
  ⟨t.val / 8, by have h : t.val < 64 := lt_of_lt_of_eq t.isLt (show cfg0.N = 64 from N_0); omega⟩
/-- The time block of a point. -/
def blk (t : Fin cfg0.N) : Fin 8 := ⟨t.val % 8, by omega⟩

/-- The array the `dec` window reads is `dec` with a unit axis inserted: entry `(b, u, p)` is `dec[b, p]`. -/
theorem V_dec (c : Dev nD) (b : Fin 8) (u : Fin 1) (p : Fin 256) :
    V m c main_v0 (ix3 b u p) = m ((c : Thread nD τ).loc main_arg0) (ix2 b p) := by
  have e : (V m c main_v0 : S8x1x256.Idx → Elt F .f32)
      = broadcastInDim S8x1x256 ![0, 2] bcast_S8x256_S8x1x256_0_2 (m ((c : Thread nD τ).loc main_arg0)) := by
    show StableHlo.after hostOps0 (fun b => m (c, b)) (Proc.devRef .tc main_v0) = _
    after_results
  rw [e]
  exact broadcastInDim_apply _ bcast_S8x256_S8x1x256_0_2 _ _ _ (fun a => match a with | ⟨0, _⟩ => rfl | ⟨1, _⟩ => rfl)

/-- The `dec` block at point `t`: lane `p` is `dec[row t, p]`. -/
theorem dec_blk (c : Dev nD) (t : Fin cfg0.N) (p : Fin 256) :
    (iblk m c 0 t : Vec F S1x1x256 .f32) (ix3 (0 : Fin 1) (0 : Fin 1) p)
      = m ((c : Thread nD τ).loc main_arg0) (ix2 (row t) p) := by
  obtain ⟨e0, e1, e2, -⟩ := idx_facts t
  unfold iblk
  rw [View.read_apply]
  show V m c main_v0 (((cfg0.win 0).blk t).view.emb (ix3 (0 : Fin 1) (0 : Fin 1) p)) = _
  have he : ((cfg0.win 0).blk t).view.emb (ix3 (0 : Fin 1) (0 : Fin 1) p) = ix3 (row t) (0 : Fin 1) p := by
    funext a; apply Fin.ext
    match a with
    | ⟨0, _⟩ => show win0_0.index t (0 : Fin 3) * 1 + 1 * 0 = t.val / 8; omega
    | ⟨1, _⟩ => show win0_0.index t (1 : Fin 3) * 1 + 1 * 0 = 0; omega
    | ⟨2, _⟩ => show win0_0.index t (2 : Fin 3) * 256 + 1 * p.val = p.val; omega
  rw [he, V_dec]

/-- The `enc` block at point `t`: entry `(r, q)` is `enc[row t, 16 (blk t) + r, q]`. -/
theorem enc_blk (c : Dev nD) (t : Fin cfg0.N) (r : Fin 16) (q : Fin 256) :
    (iblk m c 1 t : Vec F S1x16x256 .f32) (ix3 (0 : Fin 1) r q)
      = m ((c : Thread nD τ).loc main_arg1) (ix3 (row t) (Cert.Spec.step (blk t) r) q) := by
  obtain ⟨-, -, -, e0, e1, e2, -⟩ := idx_facts t
  unfold iblk
  rw [View.read_apply]
  show V m c main_arg1 (((cfg0.win 1).blk t).view.emb (ix3 (0 : Fin 1) r q)) = _
  refine (congrFun (V_main_arg1 m c) _).trans (congrArg _ (funext fun a => Fin.ext ?_))
  match a with
  | ⟨0, _⟩ => show win0_1.index t (0 : Fin 3) * 1 + 1 * 0 = t.val / 8; omega
  | ⟨1, _⟩ => show win0_1.index t (1 : Fin 3) * 16 + 1 * r.val = 16 * (t.val % 8) + r.val; omega
  | ⟨2, _⟩ => show win0_1.index t (2 : Fin 3) * 256 + 1 * q.val = q.val; omega

end Cert.KernelIdeal.Blocks

end
-- ==== Proof.Payload.lean ====
/-
  The body's stored value read at an index.

  The body loads the `dec` block `d : [1,1,256]`, the `enc` block `e : [1,16,256]` and the running total `a : [1,1,256]`, and
  stores, at lane `j`,

      a[j] + ∑ r < 16, (e[r,j] * ∑ p, exp (d[p] * e[r,j])) / ∑ q, exp (d[j] * e[r,q]).

  Every step between is a re-layout (a unit axis dropped or added, a broadcast along a new axis), a pointwise operation,
  or a sum along one axis from the zero word; each is read at an index written by its coordinates.
-/
import proofs.«173703_j66288525246706_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.PayloadAt

open Cert.KernelIdeal Cert.KernelIdeal.Gen Idealize.ShloMosaic Idealize.ShloMosaic.ValueIdx

/-! ## The re-layouts, at an index -/

section Layout
variable {α : Type}

/-- `[1,1,256] → [256]`: lane `p` is entry `(0,0,p)`. -/
theorem cast_11n_n (x : S1x1x256.Idx → α) (h : S1x1x256.ShapeCasts S256) (p : Fin 256) :
    shapeCast S256 x h (ix1 p) = x (ix3 (0 : Fin 1) (0 : Fin 1) p) :=
  shapeCast_apply x h _ _ (by
    rw [Shape.rowMajor_val_three, Shape.rowMajor_val_one]
    show (0 * 1 + 0) * 256 + p.val = p.val
    omega)

/-- `[1,16,256] → [16,256]`: entry `(r,q)` is entry `(0,r,q)`. -/
theorem cast_1ab_ab (x : S1x16x256.Idx → α) (h : S1x16x256.ShapeCasts S16x256) (r : Fin 16) (q : Fin 256) :
    shapeCast S16x256 x h (ix2 r q) = x (ix3 (0 : Fin 1) r q) :=
  shapeCast_apply x h _ _ (by
    rw [Shape.rowMajor_val_three, Shape.rowMajor_val_two]
    show (0 * 16 + r.val) * 256 + q.val = r.val * 256 + q.val
    omega)

/-- `[256] → [1,256,1]`: entry `(u,p,w)` is lane `p`. -/
theorem cast_n_1n1 (x : S256.Idx → α) (h : S256.ShapeCasts S1x256x1) (u : Fin 1) (p : Fin 256) (w : Fin 1) :
    shapeCast S1x256x1 x h (ix3 u p w) = x (ix1 p) :=
  shapeCast_apply x h _ _ (by
    have hu : u.val = 0 := by omega
    have hw : w.val = 0 := by omega
    rw [Shape.rowMajor_val_three, Shape.rowMajor_val_one]
    show p.val = (u.val * 256 + p.val) * 1 + w.val
    omega)

/-- `[16,256] → [16,1,256]`: entry `(r,u,q)` is entry `(r,q)`. -/
theorem cast_ab_a1b (x : S16x256.Idx → α) (h : S16x256.ShapeCasts S16x1x256) (r : Fin 16) (u : Fin 1) (q : Fin 256) :
    shapeCast S16x1x256 x h (ix3 r u q) = x (ix2 r q) :=
  shapeCast_apply x h _ _ (by
    have hu : u.val = 0 := by omega
    rw [Shape.rowMajor_val_three, Shape.rowMajor_val_two]
    show r.val * 256 + q.val = (r.val * 1 + u.val) * 256 + q.val
    omega)

/-- `[256] → [1,1,256]`: entry `(u,v,j)` is lane `j`. -/
theorem cast_n_11n (x : S256.Idx → α) (h : S256.ShapeCasts S1x1x256) (u v : Fin 1) (j : Fin 256) :
    shapeCast S1x1x256 x h (ix3 u v j) = x (ix1 j) :=
  shapeCast_apply x h _ _ (by
    have hu : u.val = 0 := by omega
    have hv : v.val = 0 := by omega
    rw [Shape.rowMajor_val_three, Shape.rowMajor_val_one]
    show j.val = (u.val * 1 + v.val) * 256 + j.val
    omega)

/-- `[1,256,1]` broadcast to `[16,256,256]`: entry `(r,p,q)` is entry `(0,p,0)`. -/
theorem bcast_1n1 (x : S1x256x1.Idx → α) (h : S1x256x1.Broadcasts S16x256x256) (r : Fin 16) (p q : Fin 256) :
    broadcastTo S16x256x256 x h (ix3 r p q) = x (ix3 (0 : Fin 1) p (0 : Fin 1)) :=
  broadcastTo_apply x h _ _ fun a => match a with | ⟨0, _⟩ => rfl | ⟨1, _⟩ => rfl | ⟨2, _⟩ => rfl

/-- `[16,1,256]` broadcast to `[16,256,256]`: entry `(r,p,q)` is entry `(r,0,q)`. -/
theorem bcast_a1b (x : S16x1x256.Idx → α) (h : S16x1x256.Broadcasts S16x256x256) (r : Fin 16) (p q : Fin 256) :
    broadcastTo S16x256x256 x h (ix3 r p q) = x (ix3 r (0 : Fin 1) q) :=
  broadcastTo_apply x h _ _ fun a => match a with | ⟨0, _⟩ => rfl | ⟨1, _⟩ => rfl | ⟨2, _⟩ => rfl

end Layout

/-! ## The sums along one axis, at an index -/

/-- Summing `[16,256,256]` along axis 1: entry `(r,q)` is `∑ p, v[r,p,q]`. -/
theorem sum_axis1 (v : FVec Ideal S16x256x256 .f32) (h : S16x256x256.Reduces [1] S16x256) (hφ : FKind.Formats .f32)
    (hacc : (0x00000000#32 : BitVec 32) = 0x00000000#32) (r : Fin 16) (q : Fin 256) :
    multiReduction .add [1] S16x256 v 0x00000000#32 h hφ hacc (ix2 r q) = ∑ p : Fin 256, v (ix3 r p q) :=
  (Ideal.multiReduction_add_single v 0x00000000#32 h hφ hacc (ix2 r q)).trans
    (Finset.sum_congr rfl fun p _ => congrArg v (funext fun a => Fin.ext (by
      match a with | ⟨0, _⟩ => rfl | ⟨1, _⟩ => rfl | ⟨2, _⟩ => rfl)))

/-- Summing `[16,256,256]` along axis 2: entry `(r,p)` is `∑ q, v[r,p,q]`. -/
theorem sum_axis2 (v : FVec Ideal S16x256x256 .f32) (h : S16x256x256.Reduces [2] S16x256) (hφ : FKind.Formats .f32)
    (hacc : (0x00000000#32 : BitVec 32) = 0x00000000#32) (r : Fin 16) (p : Fin 256) :
    multiReduction .add [2] S16x256 v 0x00000000#32 h hφ hacc (ix2 r p) = ∑ q : Fin 256, v (ix3 r p q) :=
  (Ideal.multiReduction_add_single v 0x00000000#32 h hφ hacc (ix2 r p)).trans
    (Finset.sum_congr rfl fun q _ => congrArg v (funext fun a => Fin.ext (by
      match a with | ⟨0, _⟩ => rfl | ⟨1, _⟩ => rfl | ⟨2, _⟩ => rfl)))

/-- Summing `[16,256]` along axis 0: lane `j` is `∑ r, v[r,j]`. -/
theorem sum_axis0 (v : FVec Ideal S16x256 .f32) (h : S16x256.Reduces [0] S256) (hφ : FKind.Formats .f32)
    (hacc : (0x00000000#32 : BitVec 32) = 0x00000000#32) (j : Fin 256) :
    multiReduction .add [0] S256 v 0x00000000#32 h hφ hacc (ix1 j) = ∑ r : Fin 16, v (ix2 r j) :=
  (Ideal.multiReduction_add_single v 0x00000000#32 h hφ hacc (ix1 j)).trans
    (Finset.sum_congr rfl fun r _ => congrArg v (funext fun a => Fin.ext (by
      match a with | ⟨0, _⟩ => rfl | ⟨1, _⟩ => rfl)))

/-- The exponential is pointwise. -/
theorem exp_at {s : Shape} (a : FVec Ideal s .f32) (i : s.Idx) : exp a i = Ideal.exp (a i) := rfl

/-! ## The stored values -/

/-- The accumulating store at lane `j`. -/
theorem pay2_at (d : Vec Ideal S1x1x256 .f32) (e : Vec Ideal S1x16x256 .f32) (a : Vec Ideal S1x1x256 .f32) (j : Fin 256) :
    k0_pay2 (F := Ideal) d e a (ix3 (0 : Fin 1) (0 : Fin 1) j)
      = a (ix3 (0 : Fin 1) (0 : Fin 1) j)
        + ∑ r : Fin 16, Ideal.div
            (e (ix3 (0 : Fin 1) r j) * ∑ p : Fin 256, Ideal.exp (d (ix3 (0 : Fin 1) (0 : Fin 1) p) * e (ix3 (0 : Fin 1) r j)))
            (∑ q : Fin 256, Ideal.exp (d (ix3 (0 : Fin 1) (0 : Fin 1) j) * e (ix3 (0 : Fin 1) r q))) := by
  unfold k0_pay2
  rw [addf_apply, shapeCast_self, cast_n_11n, sum_axis0]
  refine congrArg (a _ + ·) (Finset.sum_congr rfl fun r _ => ?_)
  rw [divf_apply, mulf_apply, cast_1ab_ab, sum_axis1, sum_axis2]
  refine congrArg₂ Ideal.div (congrArg (_ * ·) (Finset.sum_congr rfl fun p _ => ?_)) (Finset.sum_congr rfl fun q _ => ?_)
  · rw [exp_at, mulf_apply, bcast_1n1, bcast_a1b, cast_n_1n1, cast_ab_a1b, cast_11n_n, cast_1ab_ab]
  · rw [exp_at, mulf_apply, bcast_1n1, bcast_a1b, cast_n_1n1, cast_ab_a1b, cast_11n_n, cast_1ab_ab]

/-- The reset store is the zero block. -/
theorem pay1_at (y : S1x1x256.Idx) : k0_pay1 (F := Ideal) y = 0 := by
  unfold k0_pay1
  show Ideal.ofBits .f32 0x00000000#32 = 0
  exact Ideal.ofBits_zero_f32

end Cert.KernelIdeal.PayloadAt

end
-- ==== Proof.Cases.lean ====
/-
  What the body leaves in the output block, case by case, as the stored value of what it loaded.

  At the first time block of a batch row (case A) the body first stores the zero block, then reads it back as the running
  total; at every other time block (case B) the running total is what the point before left. In both cases the last store
  covers the whole output block, so the block ends at that store's value: the accumulating payload of the `dec` block,
  the `enc` block and the running total.
-/
import proofs.«173703_j66288525246706_1_alg».proof.Proof.Gen.KernelIdeal.Frame
import Idealize.ShloMosaic.Lib.Pipeline.Value
import Idealize.ShloMosaic.Lib.Tactic

noncomputable section

namespace Cert.KernelIdeal.CaseValue

open Cert.KernelIdeal Cert.KernelIdeal.Gen Idealize.ShloMosaic Idealize.ShloMosaic.TcCoe Idealize.SL.Sem

variable {F : FTy → Type} [FloatOps F]

theorem hz : (![0, 0, 0] : Fin 3 → Nat) = fun _ => 0 := funext fun a => by fin_cases a <;> rfl

/-- Case B: over a running total `xo`, the block ends at the accumulating payload of the two input blocks and `xo`. -/
theorem out_B (c : Dev nD) (i : grid0.Coords) (a2 : Memref sig .tc .vmem S1x1x256 .f32) (h2 : a2.IsWhole)
    (a3 : Memref sig .tc .vmem S1x16x256 .f32) (h3 : a3.IsWhole) (a4 : Memref sig .tc .vmem S1x1x256 .f32) (h4 : a4.IsWhole)
    (hc : ¬cond0_0 i) (x0 : Vec F S1x1x256 .f32) (x1 : Vec F S1x16x256 .f32) (xo : Vec F S1x1x256 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  rw [View.canon_unit_zero hz]
  simp only [View.readAt_eq_ld, h2.read_unread, h3.read_unread, h4.read_unread, View.ld_unit_zero (S := S1x1x256) hz,
    View.ld_unit_zero (S := S1x16x256) hz]

/-- Case A: the running total read back is the zero block just stored. -/
theorem out_A (c : Dev nD) (i : grid0.Coords) (a2 : Memref sig .tc .vmem S1x1x256 .f32) (h2 : a2.IsWhole)
    (a3 : Memref sig .tc .vmem S1x16x256 .f32) (h3 : a3.IsWhole) (a4 : Memref sig .tc .vmem S1x1x256 .f32) (h4 : a4.IsWhole)
    (hc : cond0_0 i) (x0 : Vec F S1x1x256 .f32) (x1 : Vec F S1x16x256 .f32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1x256) hz, View.readCov_unit_zero (S := S1x1x256) _ hz]
  simp only [View.readAt_eq_ld, h2.read_unread, h3.read_unread, View.ld_unit_zero (S := S1x1x256) hz,
    View.ld_unit_zero (S := S1x16x256) hz]

end Cert.KernelIdeal.CaseValue

end
-- ==== Proof.Accum.lean ====
/-
  The running total in the output block, point by point.

  At point `t = 8 b + k` the body adds time block `k`'s sum for row `b` to the running total: from zero when `k = 0`, from
  what point `t - 1` left otherwise (the same row `b`, time block `k - 1`). So after point `t` the output block holds, at
  lane `j`, the sum of the time blocks `0 … k` of row `b`; by induction on the point.
-/
import proofs.«173703_j66288525246706_1_alg».proof.Proof.Gen.KernelIdeal.Frame
import proofs.«173703_j66288525246706_1_alg».proof.Proof.Spec
import proofs.«173703_j66288525246706_1_alg».proof.Proof.Payload
import proofs.«173703_j66288525246706_1_alg».proof.Proof.Cases
import proofs.«173703_j66288525246706_1_alg».proof.Proof.Blocks

noncomputable section

namespace Cert.KernelIdeal.Accum

open Cert.KernelIdeal Cert.KernelIdeal.Gen Idealize.ShloMosaic Idealize.ShloMosaic.TcCoe Idealize.SL.Sem
open Idealize.ShloMosaic.ValueIdx
open Cert.KernelIdeal.Blocks (row blk)

variable (m : (ℓ : Loc nD τ sig) → Buf (Elt Ideal) ℓ)

/-- The first argument as launched. -/
abbrev dec (c : Dev nD) : Cert.Spec.Dec := m ((c : Thread nD τ).loc main_arg0)
/-- The second argument as launched. -/
abbrev enc (c : Dev nD) : Cert.Spec.Enc := m ((c : Thread nD τ).loc main_arg1)

/-- One point's store over a running total `a`: at lane `j`, `a[j]` plus the sum of the point's time block for its row. -/
theorem step_at (c : Dev nD) (t : Fin cfg0.N) (a : Vec Ideal S1x1x256 .f32) (j : Fin 256) :
    k0_pay2 (F := Ideal) (iblk m c 0 t) (iblk m c 1 t) a (ix3 (0 : Fin 1) (0 : Fin 1) j)
      = a (ix3 (0 : Fin 1) (0 : Fin 1) j) + Cert.Spec.blockSum (dec m c) (enc m c) (row t) (blk t) j := by
  refine (PayloadAt.pay2_at (iblk m c 0 t) (iblk m c 1 t) a j).trans (congrArg (a _ + ·) ?_)
  unfold Cert.Spec.blockSum Cert.Spec.term
  have hd : ∀ p : Fin 256, (iblk m c 0 t : Vec Ideal S1x1x256 .f32) (ix3 (0 : Fin 1) (0 : Fin 1) p)
      = dec m c (ix2 (row t) p) := Blocks.dec_blk m c t
  have he : ∀ (r : Fin 16) (q : Fin 256), (iblk m c 1 t : Vec Ideal S1x16x256 .f32) (ix3 (0 : Fin 1) r q)
      = enc m c (ix3 (row t) (Cert.Spec.step (blk t) r) q) := Blocks.enc_blk m c t
  refine Finset.sum_congr rfl fun r _ => ?_
  rw [he r j, hd j]
  refine congrArg₂ Ideal.div (congrArg (_ * ·) (Finset.sum_congr rfl fun p _ => ?_)) (Finset.sum_congr rfl fun q _ => ?_)
  · rw [hd p]
  · rw [he r q]

/-- A first time block (`t % 8 = 0`): the block ends at time block 0's sum alone. -/
theorem at_first (c : Dev nD) (t : Fin cfg0.N) (h0 : t.val % 8 = 0) (j : Fin 256) :
    outsAt0 m c t.val t.isLt (ix3 (0 : Fin 1) (0 : Fin 1) j) = Cert.Spec.upTo (dec m c) (enc m c) (row t) 1 j := by
  rw [outsAt0_A m c t h0, CaseValue.out_A]
  refine (step_at m c t _ j).trans ?_
  rw [PayloadAt.pay1_at, Cert.Spec.upTo_succ _ _ _ 0 (by omega), Cert.Spec.upTo_zero]
  have hk : blk t = (⟨0, by omega⟩ : Fin 8) := Fin.ext h0
  rw [hk]

/-- A later time block: what the point before left, plus this time block's sum. -/
theorem at_next (c : Dev nD) (t : Fin cfg0.N) (h0 : ¬t.val % 8 = 0) (j : Fin 256) :
    outsAt0 m c t.val t.isLt (ix3 (0 : Fin 1) (0 : Fin 1) j)
      = outsAt0 m c (t.val - 1) (Nat.lt_of_le_of_lt (Nat.sub_le _ _) t.isLt) (ix3 (0 : Fin 1) (0 : Fin 1) j)
        + Cert.Spec.blockSum (dec m c) (enc m c) (row t) (blk t) j := by
  rw [outsAt0_B m c t h0, CaseValue.out_B]
  exact step_at m c t _ j

/-- After point `n = 8 b + k` the output block holds the sum of the time blocks `0 … k` of row `b`. -/
theorem outsAt_eq (c : Dev nD) : ∀ (n : ℕ) (h : n < cfg0.N) (j : Fin 256),
    outsAt0 m c n h (ix3 (0 : Fin 1) (0 : Fin 1) j)
      = Cert.Spec.upTo (dec m c) (enc m c) (row ⟨n, h⟩) (n % 8 + 1) j := by
  intro n
  induction n with
  | zero =>
    intro h j
    exact at_first m c ⟨0, h⟩ rfl j
  | succ n ih =>
    intro h j
    have hN : n + 1 < 64 := lt_of_lt_of_eq h (show cfg0.N = 64 from N_0)
    by_cases h0 : (n + 1) % 8 = 0
    · rw [h0]
      exact at_first m c ⟨n + 1, h⟩ h0 j
    · refine (at_next m c ⟨n + 1, h⟩ h0 j).trans ?_
      show outsAt0 m c n _ (ix3 (0 : Fin 1) (0 : Fin 1) j) + _ = _
      rw [ih (Nat.lt_of_succ_lt h) j]
      have hr : row ⟨n, Nat.lt_of_succ_lt h⟩ = row ⟨n + 1, h⟩ := Fin.ext (by show n / 8 = (n + 1) / 8; omega)
      have hk : n % 8 + 1 = (n + 1) % 8 := by omega
      rw [hr, hk, Cert.Spec.upTo_succ _ _ _ ((n + 1) % 8) (by omega)]
      rfl

/-- At a last time block (`t % 8 = 7`) the output block holds the whole result for its row. -/
theorem at_last (c : Dev nD) (t : Fin cfg0.N) (h7 : t.val % 8 = 7) (j : Fin 256) :
    outsAt0 m c t.val t.isLt (ix3 (0 : Fin 1) (0 : Fin 1) j) = Cert.Spec.G (dec m c) (enc m c) (ix2 (row t) j) := by
  rw [outsAt_eq m c t.val t.isLt j, h7]
  exact Cert.Spec.upTo_eight _ _ _ _

end Cert.KernelIdeal.Accum

end
-- ==== Proof.KernelValue.lean ====
/-
  The kernel's result array.

  The output array `[8,1,256]` is written back once per batch row, after the row's last time block (`t % 8 = 7`), when the
  output block holds the whole sum for that row; the eight written-back blocks are the eight rows, so they cover the
  array, which therefore ends holding `Spec.G` with a unit axis in the middle. The host line after the region drops that
  axis: entry `(b, j)` of the result is entry `(b, 0, j)` of the array.
-/
import proofs.«173703_j66288525246706_1_alg».proof.Proof.Gen.KernelIdeal.Frame
import proofs.«173703_j66288525246706_1_alg».proof.Proof.Spec
import proofs.«173703_j66288525246706_1_alg».proof.Proof.Blocks
import proofs.«173703_j66288525246706_1_alg».proof.Proof.Accum
import Idealize.ShloMosaic.Lib.Pipeline.Value
import Idealize.ShloMosaic.Lib.StableHlo.Run
import Idealize.ShloMosaic.Lib.Tactic

noncomputable section

namespace Cert.KernelIdeal.KValue

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.KernelIdeal.Blocks (row blk idx_facts)
open Cert.KernelIdeal.Accum (dec enc)

variable (m : (ℓ : Loc nD τ sig) → Buf (Elt Ideal) ℓ) (ρ : Dev nD → PrngReg)

/-- The output array after the region: entry `(b, u, j)` is the result's entry `(b, j)`. -/
def arr (c : Dev nD) : Buf (Elt Ideal) ((c : Thread nD τ).loc main_v1) :=
  fun i => Cert.Spec.G (dec m c) (enc m c) (ix2 (⟨(i 0).val, (i 0).isLt⟩ : Fin 8) (⟨(i 2).val, (i 2).isLt⟩ : Fin 256))

/-- An index of the output block is its lane. -/
theorem eq_lane (y : S1x1x256.Idx) : y = ix3 (0 : Fin 1) (0 : Fin 1) (⟨(y 2).val, (y 2).isLt⟩ : Fin 256) :=
  funext fun a => Fin.ext (match a with
    | ⟨0, _⟩ => by have h : (y 0).val < 1 := (y 0).isLt; show (y 0).val = 0; omega
    | ⟨1, _⟩ => by have h : (y 1).val < 1 := (y 1).isLt; show (y 1).val = 0; omega
    | ⟨2, _⟩ => rfl)

/-- What a writing-back point writes is its block of `arr`: the whole sum of its row. -/
theorem flushed_eq (c : Dev nD) (t : Fin cfg0.N) (hf : (cfg0.win 2).flush t = true) :
    (dats m 0 c).flushed 2 t = ((cfg0.win 2).blk t).view.read (Elt Ideal) (arr m c) := by
  have h7 : t.val % 8 = 7 := (flush0_2 t).mp hf
  obtain ⟨-, -, -, -, -, -, e0, e1, e2⟩ := idx_facts t
  show (cfg0.win 2).cut (grid0.coords t) ((dats m 0 c).after 2 t) = _
  rw [after0_2]
  funext y
  obtain ⟨j, rfl⟩ : ∃ j : Fin 256, y = ix3 (0 : Fin 1) (0 : Fin 1) j := ⟨_, eq_lane y⟩
  show outsAt0 m c t.val t.isLt (ix3 (0 : Fin 1) (0 : Fin 1) j)
    = arr m c (((cfg0.win 2).blk t).view.emb (ix3 (0 : Fin 1) (0 : Fin 1) j))
  rw [Accum.at_last m c t h7 j]
  show Cert.Spec.G (dec m c) (enc m c) (ix2 (row t) j) = Cert.Spec.G (dec m c) (enc m c) (ix2 _ _)
  refine congrArg _ (funext fun a => Fin.ext ?_)
  match a with
  | ⟨0, _⟩ => show t.val / 8 = win0_2.index t (0 : Fin 3) * 1 + 1 * 0; omega
  | ⟨1, _⟩ => show j.val = win0_2.index t (2 : Fin 3) * 256 + 1 * j.val; omega

/-- An index of the array is in point `t`'s block iff each coordinate is in the block's range on its axis. -/
theorem mem_blk (t : Fin cfg0.N) (i : S8x1x256.Idx) :
    i ∈ ((cfg0.win 2).blk t).view.set
      ↔ ∀ a : Fin 3, win0_2.index t a * S1x1x256.size a ≤ (i a).val ∧ (i a).val < win0_2.index t a * S1x1x256.size a + S1x1x256.size a := by
  show i ∈ ((View.whole main_v1).slice (win0_2.rect t)).set ↔ _
  rw [View.set_slice_whole, Rect.mem_set_unit]
  exact Iff.rfl

/-- Row `b` of the array is written back by the last time block of row `b`, point `8 b + 7`. -/
theorem cover (i : S8x1x256.Idx) :
    ∃ t : Fin cfg0.N, (cfg0.win 2).flush t = true ∧ i ∈ ((cfg0.win 2).blk t).view.set := by
  have hi0 : (i 0).val < 8 := (i 0).isLt
  have hi1 : (i 1).val < 1 := (i 1).isLt
  have hi2 : (i 2).val < 256 := (i 2).isLt
  obtain ⟨t, ht⟩ : ∃ t : Fin cfg0.N, t.val = 8 * (i 0).val + 7 :=
    ⟨⟨8 * (i 0).val + 7, by rw [show cfg0.N = 64 from N_0]; omega⟩, rfl⟩
  obtain ⟨-, -, -, -, -, -, e0, e1, e2⟩ := idx_facts t
  refine ⟨t, (flush0_2 t).mpr (by omega), ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 1 ≤ (i 1).val ∧ (i 1).val < win0_2.index t (1 : Fin 3) * 1 + 1; omega
  | ⟨2, _⟩ => show win0_2.index t (2 : Fin 3) * 256 ≤ (i 2).val ∧ (i 2).val < win0_2.index t (2 : Fin 3) * 256 + 256; omega

/-- The output array after the region is `arr`. -/
theorem final (c : Dev nD) : (dats m 0 c).arrAt 2 cfg0.N = arr m c :=
  (dats m 0 c).arrAt_eq_of_cover 2 (arr m c) (flushed_eq m c) cover

/-- The host line after the region drops the unit axis: the result is `Spec.G` of the arguments. -/
theorem tail_eq (c : Dev nD) :
    Pipeline.afterTail₀ cfgs (dats m) 0 (V0 m) [hostOps1] c main_v2 = Cert.Spec.G (dec m c) (enc m c) := by
  unfold Pipeline.afterTail₀
  show StableHlo.after hostOps1 _ (Proc.devRef .tc main_v2) = _
  after_results
  have hW : Pipeline.withArrays (cfgs 0).spec c (V0 m c) (fun w => (dats m 0 c).arrAt w (cfgs 0).N) (Proc.devRef .tc main_v1)
      = arr m c := (Pipeline.withArrays_arr spec0 launch0.win.arr_inj c _ _ 2).trans (final m c)
  funext i
  obtain ⟨b, j, rfl⟩ : ∃ (b : Fin 8) (j : Fin 256), i = ix2 b j := ⟨i 0, i 1, eq_ix2 i⟩
  show shapeCast S8x256 (Pipeline.withArrays (cfgs 0).spec c (V0 m c) (fun w => (dats m 0 c).arrAt w (cfgs 0).N)
      (Proc.devRef .tc main_v1)) shapeCasts_S8x1x256_S8x256 (ix2 b j) = _
  rw [hW]
  exact shapeCast_apply (arr m c : Vec Ideal S8x1x256 .f32) shapeCasts_S8x1x256_S8x256 (ix2 b j) (ix3 b (0 : Fin 1) j) (by
    show (S8x1x256.rowMajor (ix3 b (0 : Fin 1) j)).val = (S8x256.rowMajor (ix2 b j)).val
    rw [Shape.rowMajor_val_three, Shape.rowMajor_val_two]
    show (b.val * 1 + 0) * 256 + j.val = b.val * 256 + j.val
    omega)

/-- The kernel's run, read: the result at `Spec.G` of the arguments, the arguments unchanged. -/
theorem run : θ_run defs (onTc (τ := τ) (main (F := Ideal))) ⟨m, fun _ => 0, ρ⟩ fun r => ∀ c : Dev nD,
      r.2.mem ((c.tc : Thread nD τ).loc main_v2) = Cert.Spec.G (dec m c) (enc m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v2 (Pipeline.mem_restRefs_of main_v2 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.KernelIdeal.KValue

end
-- ==== Proof.lean ====
/-
  The kernel against its reference, over the extended reals.

  With `dec : [8, 256]`, `enc : [8, 128, 256]` and `E b t p q = exp (dec[b,p] * enc[b,t,q])`, both programs compute

      out[b, j] = ∑ t < 128, (enc[b,t,j] * ∑ p, E b t p j) / ∑ q, E b t j q        (`Spec.G`).

  The reference does it in fourteen host operations over `[8,128,256,256]` (`RefSpec.ref_is_spec`: two broadcasts, a product,
  an exponential, two sums along one axis from zero, a product, a quotient, a sum over the time steps from zero). The
  kernel runs an 8 × 8 grid, point `8 b + k` adding the sum of time block `k` (steps `16 k … 16 k + 15`) of row `b` to a running
  total that starts from a stored zero at `k = 0` and is written back after `k = 7` (`Accum.outsAt_eq`, by induction on the
  point; `KValue.final`: the eight written-back rows cover the output array), and a host reshape drops the unit axis
  (`KValue.tail_eq`). The two arrangements of the sum over the time steps, all at once or in eight blocks of sixteen from
  zero, are the same element of a commutative monoid (`Spec.sum_blocks`), so the results are equal extended reals whatever
  the inputs: the precondition is not used. The ideal pass rewrote nothing, so `preserves` is trivial; the two kernel
  frames are the generated ones, the reference's frame is its generated run with the result dropped.
-/
import proofs.«173703_j66288525246706_1_alg».proof.Defs
import proofs.«173703_j66288525246706_1_alg».proof.Proof.Gen.Kernel
import proofs.«173703_j66288525246706_1_alg».proof.Proof.Gen.Kernel.Frame
import proofs.«173703_j66288525246706_1_alg».proof.Proof.Gen.KernelIdeal
import proofs.«173703_j66288525246706_1_alg».proof.Proof.Gen.KernelIdeal.Frame
import proofs.«173703_j66288525246706_1_alg».proof.Proof.Gen.ReferenceIdeal
import proofs.«173703_j66288525246706_1_alg».proof.Proof.Gen.ReferenceIdeal.Run
import proofs.«173703_j66288525246706_1_alg».proof.Proof.Gen.ReferenceIdeal.Read
import proofs.«173703_j66288525246706_1_alg».proof.Proof.Gen.Pre_finite_inputs
import proofs.«173703_j66288525246706_1_alg».proof.Proof.Spec
import proofs.«173703_j66288525246706_1_alg».proof.Proof.RefSpec
import proofs.«173703_j66288525246706_1_alg».proof.Proof.KernelValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at `Spec.G` of the (agreeing) arguments. -/
theorem algebraic : Cert.algebraic_KernelIdeal_ReferenceIdeal := by
  intro m ρ m' ρ' _ hagree
  refine ⟨fun c => Cert.Spec.G (Cert.KernelIdeal.Accum.dec m c) (Cert.KernelIdeal.Accum.enc m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.RefSpec.ref_is_spec, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
